-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S4096x64x64 : Shape := ⟨3, ![4096, 64, 64]⟩
abbrev S64x64x64 : Shape := ⟨3, ![64, 64, 64]⟩
abbrev S64x64 : Shape := ⟨2, ![64, 64]⟩
abbrev S64x64x1 : Shape := ⟨3, ![64, 64, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x64x64, .f32⟩
  | .hbm, ⟨4, _⟩ => ⟨S4096x64x64, .f32⟩
  | .hbm, ⟨5, _⟩ => ⟨S4096x64x64, .f32⟩
  | .hbm, ⟨6, _⟩ => ⟨S4096x64x64, .f32⟩
  | .hbm, ⟨7, _⟩ => ⟨S4096x4096, .f32⟩
  | .local _ .vmem, ⟨0, _⟩ => ⟨S64x64x64, .f32⟩
  | .local _ .vmem, ⟨1, _⟩ => ⟨S64x64x64, .f32⟩
  | .local _ .vmem, ⟨2, _⟩ => ⟨S64x64x64, .f32⟩
  | .local _ .vmem, ⟨3, _⟩ => ⟨S64x64x64, .f32⟩
  | .local _ .vmem, ⟨4, _⟩ => ⟨S64x64x64, .f32⟩
  | .local _ .vmem, ⟨5, _⟩ => ⟨S64x64x64, .f32⟩
  | .local _ .vmem, ⟨6, _⟩ => ⟨S64x64x64, .f32⟩
  | .local _ .vmem, ⟨7, _⟩ => ⟨S64x64x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x4096_S4096x64x64 : S4096x4096.ShapeCasts S4096x64x64
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  bitsLt_bf16_f32 : FTy.bits .bf16 < FTy.bits .f32
  reduces_S64x64x64_S64x64 : S64x64x64.Reduces [2] S64x64
  shapeCasts_S64x64_S64x64x1 : S64x64.ShapeCasts S64x64x1
  broadcasts_S64x64x1_S64x64x64 : S64x64x1.Broadcasts S64x64x64
  shapeCasts_S4096x64x64_S4096x4096 : S4096x64x64.ShapeCasts S4096x4096
  dot_S64x64x64_S64x64x64_S64x64x64_1_1_2_2_0_0_wf : DotDims.WF S64x64x64 S64x64x64 S64x64x64 [1] [1] [2] [2] [0] [0]
  dot_S64x64x64_S64x64x64_S64x64x64_2_2_1_1_0_0_wf : DotDims.WF S64x64x64 S64x64x64 S64x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x64.size a ≤ S4096x64x64.size a
  hwx0_0 : ∀ i : grid0.Coords, EltTy.bits .f32 = 32 ∨ (Rect.block (s := S4096x64x64) S64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S4096x64x64.size a
  hwx0_1 : ∀ i : grid0.Coords, EltTy.bits .f32 = 32 ∨ (Rect.block (s := S4096x64x64) S64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x64.size a ≤ S4096x64x64.size a
  hwx0_2 : ∀ i : grid0.Coords, EltTy.bits .f32 = 32 ∨ (Rect.block (s := S4096x64x64) S64x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x64.size a ≤ S4096x64x64.size a
  hwx0_3 : ∀ i : grid0.Coords, EltTy.bits .f32 = 32 ∨ (Rect.block (s := S4096x64x64) S64x64x64.size (cc0_transform_3 i) (hinb0_3 i)).WholeWords (EltTy.packing .f32)

variable [Facts₀]

def dot_S64x64x64_S64x64x64_S64x64x64_1_1_2_2_0_0 : DotDims S64x64x64 S64x64x64 S64x64x64 where
  lhsContracting := [1]
  rhsContracting := [1]
  lhsNonContracting := [2]
  rhsNonContracting := [2]
  lhsBatch := [0]
  rhsBatch := [0]
  wf := dot_S64x64x64_S64x64x64_S64x64x64_1_1_2_2_0_0_wf
def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf

abbrev win0_0 : Pipeline.Window sig grid0 :=
  Pipeline.Window.ofSpec (Memref.whole main_v0) S64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x64x64, .f32⟩
  | .hbm, ⟨4, _⟩ => ⟨S4096x64x64, .f32⟩
  | .hbm, ⟨5, _⟩ => ⟨S4096x64x64, .f32⟩
  | .hbm, ⟨6, _⟩ => ⟨S4096x64x64, .f32⟩
  | .hbm, ⟨7, _⟩ => ⟨S4096x64x64, .f32⟩
  | .hbm, ⟨8, _⟩ => ⟨S4096x64x64, .f32⟩
  | .hbm, ⟨9, _⟩ => ⟨S4096x64x64, .f32⟩
  | .hbm, ⟨10, _⟩ => ⟨S_, .f32⟩
  | .hbm, ⟨11, _⟩ => ⟨S4096x64, .f32⟩
  | .hbm, ⟨12, _⟩ => ⟨S_, .f32⟩
  | .hbm, ⟨13, _⟩ => ⟨S4096x64, .f32⟩
  | .hbm, ⟨14, _⟩ => ⟨S4096x64, .f32⟩
  | .hbm, ⟨15, _⟩ => ⟨S4096x64x1, .f32⟩
  | .hbm, ⟨16, _⟩ => ⟨S4096x64x64, .f32⟩
  | .hbm, ⟨17, _⟩ => ⟨S4096x64x64, .f32⟩
  | .hbm, ⟨18, _⟩ => ⟨S4096x64x64, .f32⟩
  | .hbm, ⟨19, _⟩ => ⟨S_, .f32⟩
  | .hbm, ⟨20, _⟩ => ⟨S4096x64, .f32⟩
  | .hbm, ⟨21, _⟩ => ⟨S4096x64x1, .f32⟩
  | .hbm, ⟨22, _⟩ => ⟨S4096x64x64, .f32⟩
  | .hbm, ⟨23, _⟩ => ⟨S4096x64x64, .f32⟩
  | .hbm, ⟨24, _⟩ => ⟨S4096x64x64, .f32⟩
  | .hbm, ⟨25, _⟩ => ⟨S4096x64x64, .f32⟩
  | .hbm, ⟨26, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  shapeCasts_S4096x4096_S4096x64x64 : S4096x4096.ShapeCasts S4096x64x64
  transposes_S4096x64x64_S4096x64x64_0_2_1 : S4096x64x64.Transposes [0, 2, 1] S4096x64x64
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  dot_S4096x64x64_S4096x64x64_S4096x64x64_2_2_1_1_0_0_wf : DotDims.WF S4096x64x64 S4096x64x64 S4096x64x64 [2] [2] [1] [1] [0] [0]
  dot_S4096x64x64_S4096x64x64_S4096x64x64_2_1_1_2_0_0_wf : DotDims.WF S4096x64x64 S4096x64x64 S4096x64x64 [2] [1] [1] [2] [0] [0]

variable [Facts₀]

def dot_S4096x64x64_S4096x64x64_S4096x64x64_2_2_1_1_0_0 : DotDims S4096x64x64 S4096x64x64 S4096x64x64 where
  lhsContracting := [2]
  rhsContracting := [2]
  lhsNonContracting := [1]
  rhsNonContracting := [1]
  lhsBatch := [0]
  rhsBatch := [0]
  wf := dot_S4096x64x64_S4096x64x64_S4096x64x64_2_2_1_1_0_0_wf
def dot_S4096x64x64_S4096x64x64_S4096x64x64_2_1_1_2_0_0 : DotDims S4096x64x64 S4096x64x64 S4096x64x64 where
  lhsContracting := [2]
  rhsContracting := [1]
  lhsNonContracting := [1]
  rhsNonContracting := [2]
  lhsBatch := [0]
  rhsBatch := [0]
  wf := dot_S4096x64x64_S4096x64x64_S4096x64x64_2_1_1_2_0_0_wf

class Facts : Prop extends Facts₀ where

variable [Facts]
-- ==== Proof.RowAttention.lean ====
/-
  Attention within one row, as a function on the extended reals.

  A row of 4096 numbers is read as a 64 x 64 matrix `M h d` (`h` the major coordinate).  From three such matrices
  `q`, `k`, `v` the row's result is

    score d e = sum over h of q h d * k h e
    expo  d e = exp (score d e - rowMax (score d))          rowMax s = max (-inf) (max over e of s e, from -inf)
    prob  d e = expo d e / (sum over e' of expo d e')
    out   h d = sum over e of prob d e * v h e

  Both programs compute exactly this, on every row independently; nothing here uses that the entries are finite.
  The minus infinity is kept as the f32 pattern the two programs print, and is never evaluated.
-/
import Idealize.ShloMosaic.PureOps.Ideal
import Idealize.ShloMosaic.Lib.ValueIdx

noncomputable section

namespace Cert.RowAttention

open Idealize.ShloMosaic Idealize.ShloMosaic.ValueIdx

/-- The f32 pattern of minus infinity that both programs start a row's maximum from. -/
abbrev negInf : EReal := Ideal.ofBits .f32 0xFF800000#32

/-- One row, read as 64 groups of 64 entries. -/
abbrev Mat : Type := Fin 64 → Fin 64 → EReal

/-- The scores of one row: positions `d` of `q` against positions `e` of `k`, contracted over the groups. -/
def score (q k : Mat) (d e : Fin 64) : EReal := ∑ h : Fin 64, q h d * k h e

/-- The maximum a softmax subtracts: the fold of `max` from minus infinity, once more against minus infinity. -/
def rowMax (s : Fin 64 → EReal) : EReal := max negInf (Finset.univ.fold max negInf s)

/-- The shifted exponentials of a row of scores. -/
def expo (q k : Mat) (d e : Fin 64) : EReal := Ideal.exp (score q k d e - rowMax (score q k d))

/-- Their sum along `e`. -/
def denom (q k : Mat) (d : Fin 64) : EReal := ∑ e : Fin 64, expo q k d e

/-- The softmax of the scores along `e`. -/
def prob (q k : Mat) (d e : Fin 64) : EReal := Ideal.div (expo q k d e) (denom q k d)

/-- The row's result at group `h`, position `d`: the softmax weights along `e` against group `h` of `v`. -/
def attnRow (q k v : Mat) (h d : Fin 64) : EReal := ∑ e : Fin 64, prob q k d e * v h e

/-- Row `n` of a stack of `N` such matrices. -/
def rowOf {N : Nat} (X : (⟨3, ![N, 64, 64]⟩ : Shape).Idx → EReal) (n : Fin N) : Mat := fun h d => X (ix3 n h d)

/-- Attention applied to every row of a stack: entry `(n, h, d)` is `attnRow` of the three rows `n` at `(h, d)`. -/
def attn {N : Nat} (Q K V : (⟨3, ![N, 64, 64]⟩ : Shape).Idx → EReal) : (⟨3, ![N, 64, 64]⟩ : Shape).Idx → EReal :=
  fun i => attnRow (rowOf Q ⟨(i 0).val, (i 0).isLt⟩) (rowOf K ⟨(i 0).val, (i 0).isLt⟩) (rowOf V ⟨(i 0).val, (i 0).isLt⟩)
    ⟨(i 1).val, (i 1).isLt⟩ ⟨(i 2).val, (i 2).isLt⟩

theorem attn_ix3 {N : Nat} (Q K V : (⟨3, ![N, 64, 64]⟩ : Shape).Idx → EReal) (n : Fin N) (h d : Fin 64) :
    attn Q K V (ix3 n h d) = attnRow (rowOf Q n) (rowOf K n) (rowOf V n) h d := rfl

/-- A block of rows of the stack is the stack's attention restricted to those rows: if the three blocks `q`, `k`, `v` hold
    rows `b + r` of `Q`, `K`, `V`, attention of the blocks at `(r, h, d)` is attention of the stacks at `(b + r, h, d)`. -/
theorem attn_block {N B : Nat} (Q K V : (⟨3, ![N, 64, 64]⟩ : Shape).Idx → EReal)
    (q k v : (⟨3, ![B, 64, 64]⟩ : Shape).Idx → EReal) (r : Fin B) (n : Fin N)
    (hq : ∀ h d, q (ix3 r h d) = Q (ix3 n h d)) (hk : ∀ h d, k (ix3 r h d) = K (ix3 n h d))
    (hv : ∀ h d, v (ix3 r h d) = V (ix3 n h d)) (h d : Fin 64) :
    attn q k v (ix3 r h d) = attn Q K V (ix3 n h d) := by
  rw [attn_ix3, attn_ix3]
  have eq : rowOf q r = rowOf Q n := funext fun h => funext fun d => hq h d
  have ek : rowOf k r = rowOf K n := funext fun h => funext fun d => hk h d
  have ev : rowOf v r = rowOf V n := funext fun h => funext fun d => hv h d
  rw [eq, ek, ev]

end Cert.RowAttention

end
-- ==== Proof.KernelRow.lean ====
/-
  What the kernel body computes on one block, read at an index.

  A block holds 64 rows, each a 64 x 64 matrix.  The body's value is a chain of six steps: the scores (a matrix product into a
  zero accumulator, contracting the group axis of `q` and `k`), their row maximum, the shifted exponentials, their row sum, the
  quotient, and a second matrix product contracting the last axis of `v` and of the quotient.  Each step is read here at one
  index, and the chain at `(r, h, d)` is attention of row `r` at `(h, d)`; the only algebra used is that the product
  `v * p` of the second contraction is `p * v`.
-/
import proofs.«173387_j781684048266_1_alg».proof.Proof.Gen.KernelIdeal.Skeleton
import proofs.«173387_j781684048266_1_alg».proof.Proof.RowAttention
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.RowAttention

/-- The first product's dimension numbers: batch axis 0, contracting axis 1 of both operands. -/
abbrev D1 : DotDims S64x64x64 S64x64x64 S64x64x64 := dot_S64x64x64_S64x64x64_S64x64x64_1_1_2_2_0_0
/-- The second product's: batch axis 0, contracting axis 2 of both operands. -/
abbrev D2 : DotDims S64x64x64 S64x64x64 S64x64x64 := dot_S64x64x64_S64x64x64_S64x64x64_2_2_1_1_0_0

/-! ## The operand indices of the two products, coordinate by coordinate -/

theorem D1_lhs0 (j : S64x64x64.Idx) (q : D1.contr.Idx) : (D1.lhsIdx j q 0).val = (j 0).val := by
  unfold DotDims.lhsIdx
  rw [dif_pos (show (0 : Fin S64x64x64.rank) ∈ D1.lhsBatch by decide)]
  rfl
theorem D1_lhs1 (j : S64x64x64.Idx) (q : D1.contr.Idx) : (D1.lhsIdx j q 1).val = (q ⟨0, by decide⟩).val :=
  D1.lhsIdx_val_of_single rfl j q
theorem D1_lhs2 (j : S64x64x64.Idx) (q : D1.contr.Idx) : (D1.lhsIdx j q 2).val = (j 1).val := by
  unfold DotDims.lhsIdx
  rw [dif_neg (show ¬(2 : Fin S64x64x64.rank) ∈ D1.lhsBatch by decide), dif_pos (show (2 : Fin S64x64x64.rank) ∈ D1.lhsNonContracting by decide)]
  rfl
theorem D1_rhs0 (j : S64x64x64.Idx) (q : D1.contr.Idx) : (D1.rhsIdx j q 0).val = (j 0).val := by
  unfold DotDims.rhsIdx
  rw [dif_pos (show (0 : Fin S64x64x64.rank) ∈ D1.rhsBatch by decide)]
  rfl
theorem D1_rhs1 (j : S64x64x64.Idx) (q : D1.contr.Idx) : (D1.rhsIdx j q 1).val = (q ⟨0, by decide⟩).val :=
  D1.rhsIdx_val_of_single rfl j q
theorem D1_rhs2 (j : S64x64x64.Idx) (q : D1.contr.Idx) : (D1.rhsIdx j q 2).val = (j 2).val := by
  unfold DotDims.rhsIdx
  rw [dif_neg (show ¬(2 : Fin S64x64x64.rank) ∈ D1.rhsBatch by decide), dif_pos (show (2 : Fin S64x64x64.rank) ∈ D1.rhsNonContracting by decide)]
  rfl

theorem D2_lhs0 (j : S64x64x64.Idx) (q : D2.contr.Idx) : (D2.lhsIdx j q 0).val = (j 0).val := by
  unfold DotDims.lhsIdx
  rw [dif_pos (show (0 : Fin S64x64x64.rank) ∈ D2.lhsBatch by decide)]
  rfl
theorem D2_lhs1 (j : S64x64x64.Idx) (q : D2.contr.Idx) : (D2.lhsIdx j q 1).val = (j 1).val := by
  unfold DotDims.lhsIdx
  rw [dif_neg (show ¬(1 : Fin S64x64x64.rank) ∈ D2.lhsBatch by decide), dif_pos (show (1 : Fin S64x64x64.rank) ∈ D2.lhsNonContracting by decide)]
  rfl
theorem D2_lhs2 (j : S64x64x64.Idx) (q : D2.contr.Idx) : (D2.lhsIdx j q 2).val = (q ⟨0, by decide⟩).val :=
  D2.lhsIdx_val_of_single rfl j q
theorem D2_rhs0 (j : S64x64x64.Idx) (q : D2.contr.Idx) : (D2.rhsIdx j q 0).val = (j 0).val := by
  unfold DotDims.rhsIdx
  rw [dif_pos (show (0 : Fin S64x64x64.rank) ∈ D2.rhsBatch by decide)]
  rfl
theorem D2_rhs1 (j : S64x64x64.Idx) (q : D2.contr.Idx) : (D2.rhsIdx j q 1).val = (j 2).val := by
  unfold DotDims.rhsIdx
  rw [dif_neg (show ¬(1 : Fin S64x64x64.rank) ∈ D2.rhsBatch by decide), dif_pos (show (1 : Fin S64x64x64.rank) ∈ D2.rhsNonContracting by decide)]
  rfl
theorem D2_rhs2 (j : S64x64x64.Idx) (q : D2.contr.Idx) : (D2.rhsIdx j q 2).val = (q ⟨0, by decide⟩).val :=
  D2.rhsIdx_val_of_single rfl j q

/-! ## The non-pointwise operations at an index -/

/-- The first product into a zero accumulator: entry `(r, d, e)` sums over the group `h` the entries `(r, h, d)` and `(r, h, e)`. -/
theorem mm1_apply (a b : FVec Ideal S64x64x64 .bf16) (r d e : Fin 64) :
    matmul D1 none a b (constant (F := Ideal) S64x64x64 .f32 0x00000000#32) (ix3 r d e) = ∑ h : Fin 64, a (ix3 r h d) * b (ix3 r h e) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix3 r d e) ((contrEquiv1 D1 64 rfl rfl).symm k) = ix3 r k d := funext fun a => Fin.ext (by
    match a with
    | ⟨0, _⟩ => exact D1_lhs0 _ _
    | ⟨1, _⟩ => exact (D1_lhs1 _ _).trans hk
    | ⟨2, _⟩ => exact D1_lhs2 _ _)
  have er : D1.rhsIdx (ix3 r d e) ((contrEquiv1 D1 64 rfl rfl).symm k) = ix3 r k e := funext fun a => Fin.ext (by
    match a with
    | ⟨0, _⟩ => exact D1_rhs0 _ _
    | ⟨1, _⟩ => exact (D1_rhs1 _ _).trans hk
    | ⟨2, _⟩ => exact D1_rhs2 _ _)
  rw [el, er]

/-- The second product into a zero accumulator: entry `(r, h, d)` sums over `e` the entries `(r, h, e)` and `(r, d, e)`. -/
theorem mm2_apply (a b : FVec Ideal S64x64x64 .bf16) (r h d : Fin 64) :
    matmul D2 none a b (constant (F := Ideal) S64x64x64 .f32 0x00000000#32) (ix3 r h d) = ∑ e : Fin 64, a (ix3 r h e) * b (ix3 r d e) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix3 r h d) ((contrEquiv1 D2 64 rfl rfl).symm k) = ix3 r h k := funext fun a => Fin.ext (by
    match a with
    | ⟨0, _⟩ => exact D2_lhs0 _ _
    | ⟨1, _⟩ => exact D2_lhs1 _ _
    | ⟨2, _⟩ => exact (D2_lhs2 _ _).trans hk)
  have er : D2.rhsIdx (ix3 r h d) ((contrEquiv1 D2 64 rfl rfl).symm k) = ix3 r d k := funext fun a => Fin.ext (by
    match a with
    | ⟨0, _⟩ => exact D2_rhs0 _ _
    | ⟨1, _⟩ => exact D2_rhs1 _ _
    | ⟨2, _⟩ => exact (D2_rhs2 _ _).trans hk)
  rw [el, er]

/-- The maximum along the last axis, from minus infinity: at `(r, d)` the fold of `max` over the entries `(r, d, e)`. -/
theorem maxLast_apply (s : FVec Ideal S64x64x64 .f32) (r d : Fin 64) :
    multiReduction (F := Ideal) .maximumf [2] S64x64 s 0xFF800000#32 reduces_S64x64x64_S64x64 (.inl rfl) rfl (ix2 r d)
      = Finset.univ.fold max negInf (fun e : Fin 64 => s (ix3 r d e)) := by
  refine (Ideal.multiReduction_maximumf_single s 0xFF800000#32 reduces_S64x64x64_S64x64 (.inl rfl) rfl (ix2 r d)).trans ?_
  exact Finset.fold_congr fun e _ => congrArg s (funext fun a => Fin.ext (by
    match a with
    | ⟨0, _⟩ => rfl
    | ⟨1, _⟩ => rfl
    | ⟨2, _⟩ => rfl))

/-- The sum along the last axis, from zero: at `(r, d)` the sum of the entries `(r, d, e)`. -/
theorem sumLast_apply (s : FVec Ideal S64x64x64 .f32) (r d : Fin 64) :
    multiReduction (F := Ideal) .add [2] S64x64 s 0x00000000#32 reduces_S64x64x64_S64x64 (.inl rfl) rfl (ix2 r d)
      = ∑ e : Fin 64, s (ix3 r d e) := by
  refine (Ideal.multiReduction_add_single s 0x00000000#32 reduces_S64x64x64_S64x64 (.inl rfl) rfl (ix2 r d)).trans ?_
  exact Finset.sum_congr rfl fun e _ => congrArg s (funext fun a => Fin.ext (by
    match a with
    | ⟨0, _⟩ => rfl
    | ⟨1, _⟩ => rfl
    | ⟨2, _⟩ => rfl))

/-- A 64 x 64 array given a trailing unit axis and broadcast along it: entry `(r, d, e)` is entry `(r, d)`. -/
theorem column_apply {α : Type} (u : S64x64.Idx → α) (r d e : Fin 64) :
    broadcastTo S64x64x64 (shapeCast S64x64x1 u shapeCasts_S64x64_S64x64x1) broadcasts_S64x64x1_S64x64x64 (ix3 r d e) = u (ix2 r d) := by
  refine (broadcastTo_apply _ broadcasts_S64x64x1_S64x64x64 (ix3 r d e) (ix3 r d (0 : Fin 1)) (fun a => ?_)).trans ?_
  · match a with
    | ⟨0, _⟩ => show r.val = if (64 : Nat) = 1 then 0 else r.val; rw [if_neg (by decide)]
    | ⟨1, _⟩ => show d.val = if (64 : Nat) = 1 then 0 else d.val; rw [if_neg (by decide)]
    | ⟨2, _⟩ => show (0 : Nat) = if (1 : Nat) = 1 then 0 else e.val; rw [if_pos rfl]
  · exact shapeCast_apply u shapeCasts_S64x64_S64x64x1 (ix3 r d (0 : Fin 1)) (ix2 r d) (by
      rewrite [Shape.rowMajor_val_two, Shape.rowMajor_val_three]
      show r.val * 64 + d.val = (r.val * 64 + d.val) * 1 + 0
      omega)

/-! ## The body's value as a chain of named steps -/

/-- The scores of a block: the first product of the two loaded blocks (their change of format is the identity here). -/
def scoresV (x0 x1 : Vec Ideal S64x64x64 .f32) : FVec Ideal S64x64x64 .f32 :=
  matmul D1 none (truncf .bf16 (shapeCast S64x64x64 x0 shapeCasts_S64x64x64_S64x64x64) bitsLt_bf16_f32)
    (truncf .bf16 (shapeCast S64x64x64 x1 shapeCasts_S64x64x64_S64x64x64) bitsLt_bf16_f32) (constant S64x64x64 .f32 0x00000000#32)
/-- The row maxima the softmax subtracts. -/
def maxV (s : FVec Ideal S64x64x64 .f32) : FVec Ideal S64x64 .f32 :=
  maximumf (broadcast S64x64 (Scalar.ofBits (F := Ideal) .f32 0xFF800000#32))
    (multiReduction .maximumf [2] S64x64 s 0xFF800000#32 reduces_S64x64x64_S64x64 (.inl rfl) rfl)
/-- The shifted exponentials. -/
def expV (s : FVec Ideal S64x64x64 .f32) : FVec Ideal S64x64x64 .f32 :=
  exp (subf s (broadcastTo S64x64x64 (shapeCast S64x64x1 (maxV s) shapeCasts_S64x64_S64x64x1) broadcasts_S64x64x1_S64x64x64))
/-- Their row sums. -/
def sumV (x : FVec Ideal S64x64x64 .f32) : FVec Ideal S64x64 .f32 :=
  multiReduction .add [2] S64x64 x 0x00000000#32 reduces_S64x64x64_S64x64 (.inl rfl) rfl
/-- The quotient by the row sums. -/
def probV (x : FVec Ideal S64x64x64 .f32) : FVec Ideal S64x64x64 .f32 :=
  divf x (broadcastTo S64x64x64 (shapeCast S64x64x1 (sumV x) shapeCasts_S64x64_S64x64x1) broadcasts_S64x64x1_S64x64x64)
/-- The second product: the third loaded block against the quotient. -/
def outV (x2 : Vec Ideal S64x64x64 .f32) (p : FVec Ideal S64x64x64 .f32) : FVec Ideal S64x64x64 .f32 :=
  matmul D2 none (truncf .bf16 (shapeCast S64x64x64 x2 shapeCasts_S64x64x64_S64x64x64) bitsLt_bf16_f32)
    (truncf .bf16 p bitsLt_bf16_f32) (constant S64x64x64 .f32 0x00000000#32)

/-- The stored value is the chain. -/
theorem pay_eq (x0 x1 x2 : Vec Ideal S64x64x64 .f32) :
    k0_pay1 (F := Ideal) x0 x1 x2 = outV x2 (probV (expV (scoresV x0 x1))) := rfl

/-! ## Each step at an index, in the row's terms -/

theorem scoresV_apply (x0 x1 : Vec Ideal S64x64x64 .f32) (r d e : Fin 64) :
    scoresV x0 x1 (ix3 r d e) = score (rowOf x0 r) (rowOf x1 r) d e := by
  unfold scoresV
  rw [mm1_apply]
  show ∑ h : Fin 64, shapeCast S64x64x64 x0 shapeCasts_S64x64x64_S64x64x64 (ix3 r h d) * shapeCast S64x64x64 x1 shapeCasts_S64x64x64_S64x64x64 (ix3 r h e) = _
  rw [shapeCast_self, shapeCast_self]
  rfl

theorem maxV_apply (s : FVec Ideal S64x64x64 .f32) (r d : Fin 64) :
    maxV s (ix2 r d) = rowMax (fun e => s (ix3 r d e)) := by
  unfold maxV rowMax
  show max negInf (multiReduction (F := Ideal) .maximumf [2] S64x64 s 0xFF800000#32 reduces_S64x64x64_S64x64 (.inl rfl) rfl (ix2 r d)) = _
  rw [maxLast_apply]

theorem expV_apply (s : FVec Ideal S64x64x64 .f32) (r d e : Fin 64) :
    expV s (ix3 r d e) = Ideal.exp (s (ix3 r d e) - rowMax (fun e => s (ix3 r d e))) := by
  unfold expV
  show Ideal.exp (s (ix3 r d e) - broadcastTo S64x64x64 (shapeCast S64x64x1 (maxV s) shapeCasts_S64x64_S64x64x1) broadcasts_S64x64x1_S64x64x64 (ix3 r d e)) = _
  rw [column_apply, maxV_apply]

theorem sumV_apply (x : FVec Ideal S64x64x64 .f32) (r d : Fin 64) :
    sumV x (ix2 r d) = ∑ e : Fin 64, x (ix3 r d e) := by
  unfold sumV
  exact sumLast_apply x r d

theorem probV_apply (x : FVec Ideal S64x64x64 .f32) (r d e : Fin 64) :
    probV x (ix3 r d e) = Ideal.div (x (ix3 r d e)) (∑ e' : Fin 64, x (ix3 r d e')) := by
  unfold probV
  show Ideal.div (x (ix3 r d e)) (broadcastTo S64x64x64 (shapeCast S64x64x1 (sumV x) shapeCasts_S64x64_S64x64x1) broadcasts_S64x64x1_S64x64x64 (ix3 r d e)) = _
  rw [column_apply, sumV_apply]

theorem outV_apply (x2 : Vec Ideal S64x64x64 .f32) (p : FVec Ideal S64x64x64 .f32) (r h d : Fin 64) :
    outV x2 p (ix3 r h d) = ∑ e : Fin 64, x2 (ix3 r h e) * p (ix3 r d e) := by
  unfold outV
  rw [mm2_apply]
  show ∑ e : Fin 64, shapeCast S64x64x64 x2 shapeCasts_S64x64x64_S64x64x64 (ix3 r h e) * p (ix3 r d e) = _
  rw [shapeCast_self]

/-- The shifted exponentials of the block's scores are the row's. -/
theorem expV_scores (x0 x1 : Vec Ideal S64x64x64 .f32) (r d e : Fin 64) :
    expV (scoresV x0 x1) (ix3 r d e) = expo (rowOf x0 r) (rowOf x1 r) d e := by
  rw [expV_apply]
  unfold expo
  have hs : (fun e => scoresV x0 x1 (ix3 r d e)) = score (rowOf x0 r) (rowOf x1 r) d := funext fun e => scoresV_apply x0 x1 r d e
  rw [hs, scoresV_apply]

/-- THE BODY'S VALUE at `(r, h, d)` is attention of row `r` of the three loaded blocks at `(h, d)`. -/
theorem pay_apply (x0 x1 x2 : Vec Ideal S64x64x64 .f32) (r h d : Fin 64) :
    k0_pay1 (F := Ideal) x0 x1 x2 (ix3 r h d) = attn x0 x1 x2 (ix3 r h d) := by
  rw [pay_eq, outV_apply, attn_ix3]
  unfold attnRow prob denom
  refine Finset.sum_congr rfl fun e _ => ?_
  rw [probV_apply, expV_scores]
  have hsum : (∑ e' : Fin 64, expV (scoresV x0 x1) (ix3 r d e')) = ∑ e' : Fin 64, expo (rowOf x0 r) (rowOf x1 r) d e' :=
    Finset.sum_congr rfl fun e' _ => expV_scores x0 x1 r d e'
  rw [hsum]
  exact mul_comm _ _

end Cert.KernelIdeal.Body

end
-- ==== Proof.KernelArray.lean ====
/-
  From blocks to the whole result of the kernel's program.

  The program reshapes each 4096 x 4096 argument to 4096 stacked 64 x 64 matrices, runs the body on 64 grid points, and
  reshapes the stacked result back.  Point `t` reads rows `64 t .. 64 t + 63` of the three stacks and writes the same rows of
  the result; all other coordinates of a block are the array's.  So what a point writes back is its block of ONE array,
  attention of the three stacks, the 64 blocks tile the result, and the result array ends as that attention.
-/
import proofs.«173387_j781684048266_1_alg».proof.Proof.Gen.KernelIdeal.Frame
import proofs.«173387_j781684048266_1_alg».proof.Proof.KernelRow
import Idealize.ShloMosaic.Lib.Pipeline.Value
import Idealize.ShloMosaic.Lib.StableHlo.Run

noncomputable section

namespace Cert.KernelIdeal.Arrays

open Cert.KernelIdeal Cert.KernelIdeal.Gen Cert.KernelIdeal.Body Idealize.ShloMosaic Idealize.ShloMosaic.TcCoe Idealize.SL.Sem
open Idealize.ShloMosaic.ValueIdx Cert.RowAttention
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-! ## A block of 64 consecutive rows -/

/-- If three blocks hold rows `b .. b + 63` of three stacks (each block element sits in its stack at row `b` plus its own
    row, at its own other two coordinates), the body's value at a block index is attention of the stacks at that element's
    place in the result. -/
theorem pay_block (Q K V : S4096x64x64.Idx → EReal) (x0 x1 x2 : Vec Ideal S64x64x64 .f32)
    (e0 e1 e2 e3 : S64x64x64.Idx → S4096x64x64.Idx) (b : Nat) (hb : b + 64 ≤ 4096)
    (h0 : ∀ y, x0 y = Q (e0 y)) (h1 : ∀ y, x1 y = K (e1 y)) (h2 : ∀ y, x2 y = V (e2 y))
    (c0 : ∀ y, ((e0 y) 0).val = b + (y 0).val ∧ ((e0 y) 1).val = (y 1).val ∧ ((e0 y) 2).val = (y 2).val)
    (c1 : ∀ y, ((e1 y) 0).val = b + (y 0).val ∧ ((e1 y) 1).val = (y 1).val ∧ ((e1 y) 2).val = (y 2).val)
    (c2 : ∀ y, ((e2 y) 0).val = b + (y 0).val ∧ ((e2 y) 1).val = (y 1).val ∧ ((e2 y) 2).val = (y 2).val)
    (c3 : ∀ y, ((e3 y) 0).val = b + (y 0).val ∧ ((e3 y) 1).val = (y 1).val ∧ ((e3 y) 2).val = (y 2).val)
    (y : S64x64x64.Idx) : k0_pay1 (F := Ideal) x0 x1 x2 y = attn Q K V (e3 y) := by
  obtain ⟨r, h, d, rfl⟩ : ∃ (r h d : Fin 64), y = ix3 r h d := ⟨y 0, y 1, y 2, eq_ix3 y⟩
  have hr : r.val < 64 := r.isLt
  have E : ∀ (e : S64x64x64.Idx → S4096x64x64.Idx),
      (∀ y, ((e y) 0).val = b + (y 0).val ∧ ((e y) 1).val = (y 1).val ∧ ((e y) 2).val = (y 2).val) →
      ∀ h' d' : Fin 64, e (ix3 r h' d') = ix3 (⟨b + r.val, by omega⟩ : Fin 4096) h' d' := fun e ce h' d' =>
    funext fun a => Fin.ext (by
      obtain ⟨q0, q1, q2⟩ := ce (ix3 r h' d')
      match a with
      | ⟨0, _⟩ => exact q0
      | ⟨1, _⟩ => exact q1
      | ⟨2, _⟩ => exact q2)
  rw [pay_apply, E e3 c3 h d]
  exact attn_block Q K V x0 x1 x2 r ⟨b + r.val, by omega⟩ (fun h' d' => by rw [h0, E e0 c0]) (fun h' d' => by rw [h1, E e1 c1])
    (fun h' d' => by rw [h2, E e2 c2]) h d

/-! ## The windows' index maps over the grid -/

/-- At every point the four windows are at the same block of rows, at block 0 of the other two axes, and the row block is
    one of the 64. -/
theorem idx_facts : ∀ t : Fin cfg0.N,
    win0_0.index t (0 : Fin 3) = win0_3.index t (0 : Fin 3) ∧ win0_1.index t (0 : Fin 3) = win0_3.index t (0 : Fin 3)
    ∧ win0_2.index t (0 : Fin 3) = win0_3.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0
    ∧ win0_3.index t (1 : Fin 3) = 0 ∧ win0_3.index t (2 : Fin 3) = 0
    ∧ win0_3.index t (0 : Fin 3) ≤ 63 :=
  (by decide +kernel : ∀ t : Fin grid0.N, _)

/-- Every block of rows is some point's. -/
theorem idx_onto : ∀ q : Fin 64, ∃ t : Fin cfg0.N, win0_3.index t = ![q.val, 0, 0] :=
  (by decide +kernel : ∀ q : Fin 64, ∃ t : Fin grid0.N, win0_3.index t = ![q.val, 0, 0])

/-! ## What a point writes back -/

theorem iblk0 (c : Dev nD) (t : Fin cfg0.N) (y : S64x64x64.Idx) :
    iblk m c 0 t y = V m c main_v0 (((cfg0.win 0).blk t).view.emb y) := rfl
theorem iblk1 (c : Dev nD) (t : Fin cfg0.N) (y : S64x64x64.Idx) :
    iblk m c 1 t y = V m c main_v1 (((cfg0.win 1).blk t).view.emb y) := rfl
theorem iblk2 (c : Dev nD) (t : Fin cfg0.N) (y : S64x64x64.Idx) :
    iblk m c 2 t y = V m c main_v2 (((cfg0.win 2).blk t).view.emb y) := rfl

/-- WHAT POINT `t` WRITES BACK is its block of attention of the three stacks as the region finds them. -/
theorem flushed_eq (c : Dev nD) (t : Fin cfg0.N) :
    (dats m 0 c).flushed 3 t
      = ((cfg0.win 3).blk t).view.read (Elt Ideal) (attn (V m c main_v0) (V m c main_v1) (V m c main_v2)) := by
  show (cfg0.win 3).cut (grid0.coords t) ((dats m 0 c).after 3 t) = _
  rw [after0_3]
  unfold out0_3
  rw [View.canon_unit_zero zeros3]
  simp only [View.ld_unit_zero (S := S64x64x64) zeros3]
  obtain ⟨f0, f1, f2, g01, g02, g11, g12, g21, g22, g31, g32, hle⟩ := idx_facts t
  funext j
  exact pay_block (V m c main_v0) (V m c main_v1) (V m c main_v2) (iblk m c 0 t) (iblk m c 1 t) (iblk m c 2 t)
    (fun y => ((cfg0.win 0).blk t).view.emb y) (fun y => ((cfg0.win 1).blk t).view.emb y)
    (fun y => ((cfg0.win 2).blk t).view.emb y) (fun y => ((cfg0.win 3).blk t).view.emb y)
    (win0_3.index t (0 : Fin 3) * 64) (by omega) (iblk0 m c t) (iblk1 m c t) (iblk2 m c t)
    (fun y => ⟨by show win0_0.index t (0 : Fin 3) * 64 + 1 * (y 0).val = _; omega,
      by show win0_0.index t (1 : Fin 3) * 64 + 1 * (y 1).val = _; omega,
      by show win0_0.index t (2 : Fin 3) * 64 + 1 * (y 2).val = _; omega⟩)
    (fun y => ⟨by show win0_1.index t (0 : Fin 3) * 64 + 1 * (y 0).val = _; omega,
      by show win0_1.index t (1 : Fin 3) * 64 + 1 * (y 1).val = _; omega,
      by show win0_1.index t (2 : Fin 3) * 64 + 1 * (y 2).val = _; omega⟩)
    (fun y => ⟨by show win0_2.index t (0 : Fin 3) * 64 + 1 * (y 0).val = _; omega,
      by show win0_2.index t (1 : Fin 3) * 64 + 1 * (y 1).val = _; omega,
      by show win0_2.index t (2 : Fin 3) * 64 + 1 * (y 2).val = _; omega⟩)
    (fun y => ⟨by show win0_3.index t (0 : Fin 3) * 64 + 1 * (y 0).val = _; omega,
      by show win0_3.index t (1 : Fin 3) * 64 + 1 * (y 1).val = _; omega,
      by show win0_3.index t (2 : Fin 3) * 64 + 1 * (y 2).val = _; omega⟩)
    j

/-! ## The blocks tile the result -/

/-- An index of the result is in point `t`'s block iff each coordinate is in the block's range on its axis. -/
theorem mem_blk (t : Fin cfg0.N) (i : S4096x64x64.Idx) :
    i ∈ ((cfg0.win 3).blk t).view.set
      ↔ ∀ a : Fin 3, win0_3.index t a * S64x64x64.size a ≤ (i a).val ∧ (i a).val < win0_3.index t a * S64x64x64.size a + S64x64x64.size a := by
  show i ∈ ((View.whole main_v3).slice (win0_3.rect t)).set ↔ _
  rw [View.set_slice_whole, Rect.mem_set_unit]
  exact Iff.rfl

/-- Row `n` of the result is in the block of the point at row block `n / 64`. -/
theorem cover (i : S4096x64x64.Idx) :
    ∃ t : Fin cfg0.N, (cfg0.win 3).flush t = true ∧ i ∈ ((cfg0.win 3).blk t).view.set := by
  have hi0 : (i 0).val < 4096 := (i 0).isLt
  have hi1 : (i 1).val < 64 := (i 1).isLt
  have hi2 : (i 2).val < 64 := (i 2).isLt
  obtain ⟨t, ht⟩ := idx_onto ⟨(i 0).val / 64, by omega⟩
  have q0 : win0_3.index t (0 : Fin 3) = (i 0).val / 64 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 64 ≤ (i 1).val ∧ (i 1).val < win0_3.index t (1 : Fin 3) * 64 + 64; omega
  | ⟨2, _⟩ => show win0_3.index t (2 : Fin 3) * 64 ≤ (i 2).val ∧ (i 2).val < win0_3.index t (2 : Fin 3) * 64 + 64; omega

/-- THE RESULT STACK after the region: attention of the three stacks as the region finds them. -/
theorem final (c : Dev nD) :
    (dats m 0 c).arrAt 3 cfg0.N = attn (V m c main_v0) (V m c main_v1) (V m c main_v2) :=
  (dats m 0 c).arrAt_eq_of_cover 3 _ (fun t _ => flushed_eq m c t) cover

end Cert.KernelIdeal.Arrays

end
-- ==== Proof.KernelRun.lean ====
/-
  The kernel's program, run: its result array as one function of the three arguments.

  Before the region each argument is reshaped to 4096 stacked 64 x 64 matrices; the region leaves attention of the three
  stacks in the result stack; after the region the result stack is reshaped to 4096 x 4096.  So the program's result is
  the reshape of attention of the three reshaped arguments, and the arguments end as they were.
-/
import proofs.«173387_j781684048266_1_alg».proof.Proof.KernelArray

noncomputable section

namespace Cert.KernelIdeal.Arrays

open Cert.KernelIdeal Cert.KernelIdeal.Gen Cert.KernelIdeal.Body Idealize.ShloMosaic Idealize.ShloMosaic.TcCoe Idealize.SL.Sem
open Idealize.ShloMosaic.ValueIdx Cert.RowAttention Idealize.ShloMosaic.StableHlo
open Idealize.ShloMosaic.Pipeline (Dat)

variable (m : (ℓ : Loc nD τ sig) → Buf (Elt Ideal) ℓ) (ρ : Dev nD → PrngReg)

/-! ## The stacks the region finds: the arguments, reshaped -/

theorem V_main_v0 (c : Dev nD) :
    (V m c main_v0 : S4096x64x64.Idx → EReal)
      = shapeCast S4096x64x64 (m ((c : Thread nD τ).loc main_arg0)) shapeCasts_S4096x4096_S4096x64x64 := by
  show StableHlo.after hostOps0 (fun b => m (c, b)) (Proc.devRef .tc main_v0) = _
  after_results
  rfl
theorem V_main_v1 (c : Dev nD) :
    (V m c main_v1 : S4096x64x64.Idx → EReal)
      = shapeCast S4096x64x64 (m ((c : Thread nD τ).loc main_arg1)) shapeCasts_S4096x4096_S4096x64x64 := by
  show StableHlo.after hostOps0 (fun b => m (c, b)) (Proc.devRef .tc main_v1) = _
  after_results
  rfl
theorem V_main_v2 (c : Dev nD) :
    (V m c main_v2 : S4096x64x64.Idx → EReal)
      = shapeCast S4096x64x64 (m ((c : Thread nD τ).loc main_arg2)) shapeCasts_S4096x4096_S4096x64x64 := by
  show StableHlo.after hostOps0 (fun b => m (c, b)) (Proc.devRef .tc main_v2) = _
  after_results
  rfl

/-! ## The line after the region: the result stack, reshaped -/

theorem tail_eq (c : Dev nD) :
    Pipeline.afterTail₀ cfgs (dats m) 0 (V0 m) [hostOps1] c main_v4
      = shapeCast S4096x4096 ((dats m 0 c).arrAt 3 cfg0.N) shapeCasts_S4096x64x64_S4096x4096 := by
  unfold Pipeline.afterTail₀
  show StableHlo.after hostOps1 _ (Proc.devRef .tc main_v4) = _
  after_results
  exact congrArg (fun X => shapeCast S4096x4096 X shapeCasts_S4096x64x64_S4096x4096)
    (Pipeline.withArrays_arr spec0 launch0.win.arr_inj c _ _ 3)

/-- The program's result: the reshape of attention of the three reshaped arguments. -/
theorem result_eq (c : Dev nD) :
    Pipeline.afterTail₀ cfgs (dats m) 0 (V0 m) [hostOps1] c main_v4
      = shapeCast S4096x4096 (attn (shapeCast S4096x64x64 (m ((c : Thread nD τ).loc main_arg0)) shapeCasts_S4096x4096_S4096x64x64)
          (shapeCast S4096x64x64 (m ((c : Thread nD τ).loc main_arg1)) shapeCasts_S4096x4096_S4096x64x64)
          (shapeCast S4096x64x64 (m ((c : Thread nD τ).loc main_arg2)) shapeCasts_S4096x4096_S4096x64x64))
          shapeCasts_S4096x64x64_S4096x4096 := by
  rw [tail_eq, final, V_main_v0, V_main_v1, V_main_v2]

/-! ## The run -/

/-- Every weakly fair execution of the kernel's program terminates with the result array at the reshape of attention of
    the three reshaped arguments, and the arguments unchanged. -/
theorem run : θ_run defs (onTc (τ := τ) (main (F := Ideal))) ⟨m, fun _ => 0, ρ⟩ fun r => ∀ c : Dev nD,
      r.2.mem ((c : Thread nD τ).loc main_v4)
        = shapeCast S4096x4096 (attn (shapeCast S4096x64x64 (m ((c : Thread nD τ).loc main_arg0)) shapeCasts_S4096x4096_S4096x64x64)
            (shapeCast S4096x64x64 (m ((c : Thread nD τ).loc main_arg1)) shapeCasts_S4096x4096_S4096x64x64)
            (shapeCast S4096x64x64 (m ((c : Thread nD τ).loc main_arg2)) shapeCasts_S4096x4096_S4096x64x64))
            shapeCasts_S4096x64x64_S4096x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arrays

end
-- ==== Proof.RefRow.lean ====
/-
  The reference, one stage at a time, is attention of every row.

  The reference reshapes each argument to 4096 stacked 64 x 64 matrices `X n h d`, transposes the last two axes, takes the
  scores by a product contracting the (now last) group axis, the softmax along the last axis, a second product contracting
  the softmax's last axis with the transposed `v`, and transposes back.  Read at an index, every transpose only renames
  coordinates, so stage 19 (the result before the final reshape) at `(n, h, d)` is `attnRow` of the three rows `n` at `(h, d)`.
  The maximum over a row is the one stage read here by hand: a fold of `max` from the initial value over the row.
-/
import proofs.«173387_j781684048266_1_alg».proof.Proof.Gen.ReferenceIdeal.Read
import proofs.«173387_j781684048266_1_alg».proof.Proof.RowAttention
import Idealize.ShloMosaic.PureOps.Ideal.Laws
import Idealize.ShloMosaic.Lib.ValueIdx
import Idealize.ShloMosaic.Lib.Pipeline.Value

noncomputable section

namespace Cert.ReferenceIdeal.Rows

open Cert.ReferenceIdeal Cert.ReferenceIdeal.Gen Cert.ReferenceIdeal.Read Idealize.ShloMosaic Idealize.ShloMosaic.ValueIdx Cert.RowAttention

/-- An argument array's contents at the ideal values. -/
abbrev Arg : Type := (⟨S4096x4096, .f32⟩ : BufTy).Contents (Elt Ideal)

/-! ## The composed index maps, in coordinates -/

theorem idx_q (n : Fin 4096) (d e k : Fin 64) : idx_main_v1 (lidx_main_v6 (ix3 n d e) k) = ix3 n k d :=
  funext fun a => Fin.ext (by match a with | ⟨0, _⟩ => rfl | ⟨1, _⟩ => rfl | ⟨2, _⟩ => rfl)
theorem idx_k (n : Fin 4096) (d e k : Fin 64) : idx_main_v3 (ridx_main_v6 (ix3 n d e) k) = ix3 n k e :=
  funext fun a => Fin.ext (by match a with | ⟨0, _⟩ => rfl | ⟨1, _⟩ => rfl | ⟨2, _⟩ => rfl)
theorem idx_col (n : Fin 4096) (d e : Fin 64) : idx_main_v10 (idx_main_v11 (ix3 n d e)) = ix2 n d :=
  funext fun a => Fin.ext (by match a with | ⟨0, _⟩ => rfl | ⟨1, _⟩ => rfl)
theorem idx_col' (n : Fin 4096) (d e : Fin 64) : idx_main_v15 (idx_main_v16 (ix3 n d e)) = ix2 n d :=
  funext fun a => Fin.ext (by match a with | ⟨0, _⟩ => rfl | ⟨1, _⟩ => rfl)
theorem idx_sum (n : Fin 4096) (d k : Fin 64) : idx_main_v14 (ix2 n d) k = ix3 n d k :=
  funext fun a => Fin.ext (by match a with | ⟨0, _⟩ => rfl | ⟨1, _⟩ => rfl | ⟨2, _⟩ => rfl)
theorem idx_p (n : Fin 4096) (d h k : Fin 64) : lidx_main_v18 (ix3 n d h) k = ix3 n d k :=
  funext fun a => Fin.ext (by match a with | ⟨0, _⟩ => rfl | ⟨1, _⟩ => rfl | ⟨2, _⟩ => rfl)
theorem idx_v (n : Fin 4096) (d h k : Fin 64) : idx_main_v5 (ridx_main_v18 (ix3 n d h) k) = ix3 n h k :=
  funext fun a => Fin.ext (by match a with | ⟨0, _⟩ => rfl | ⟨1, _⟩ => rfl | ⟨2, _⟩ => rfl)
theorem idx_out (n : Fin 4096) (h d : Fin 64) : idx_main_v19 (ix3 n h d) = ix3 n d h :=
  funext fun a => Fin.ext (by match a with | ⟨0, _⟩ => rfl | ⟨1, _⟩ => rfl | ⟨2, _⟩ => rfl)

/-! ## The stages at an index, in the row's terms -/

variable (x0 x1 x2 : Arg)

/-- Stage 6, the scores. -/
theorem scores_apply (n : Fin 4096) (d e : Fin 64) :
    val_main_v6 (F := Ideal) x0 x1 (ix3 n d e)
      = score (rowOf (val_main_v0 (F := Ideal) x0) n) (rowOf (val_main_v2 (F := Ideal) x1) n) d e := by
  rw [val_main_v6_apply]
  unfold score
  refine Finset.sum_congr rfl fun k _ => ?_
  rw [val_main_v1_apply, val_main_v3_apply, idx_q, idx_k]
  rfl

/-- The last axis of the stacked shape is dropped by the reduction. -/
theorem reduces_last : S4096x64x64.Reduces [2] S4096x64 := by decide

/-- Stage 7, the maximum along the last axis from the initial value: the fold of `max` over the row. -/
theorem rowfold_apply (n : Fin 4096) (d : Fin 64) :
    val_main_v7 (F := Ideal) x0 x1 (ix2 n d)
      = Finset.univ.fold max negInf (fun e : Fin 64 => val_main_v6 (F := Ideal) x0 x1 (ix3 n d e)) := by
  unfold val_main_v7
  generalize val_main_v6 (F := Ideal) x0 x1 = y
  refine (Host.reduce_eq_fold_single (FloatOps.maximumf (F := Ideal) (φ := .f32)) y (val_main_cst (F := Ideal)) reducesTo_S4096x64x64_S4096x64_d2 reduces_last h_S_ (ix2 n d)).trans ?_
  exact Finset.fold_congr fun e _ => congrArg y (funext fun a => Fin.ext (by
    match a with
    | ⟨0, _⟩ => rfl
    | ⟨1, _⟩ => rfl
    | ⟨2, _⟩ => rfl))

/-- Stage 9, the maximum the softmax subtracts. -/
theorem max_apply (n : Fin 4096) (d : Fin 64) :
    val_main_v9 (F := Ideal) x0 x1 (ix2 n d) = rowMax (fun e => val_main_v6 (F := Ideal) x0 x1 (ix3 n d e)) := by
  rw [val_main_v9_apply, val_main_v8_apply, val_main_cst_0_apply, rowfold_apply]
  rfl

/-- Stage 13, the shifted exponentials. -/
theorem expo_apply (n : Fin 4096) (d e : Fin 64) :
    val_main_v13 (F := Ideal) x0 x1 (ix3 n d e)
      = expo (rowOf (val_main_v0 (F := Ideal) x0) n) (rowOf (val_main_v2 (F := Ideal) x1) n) d e := by
  rw [val_main_v13_apply, val_main_v12_apply, val_main_v11_apply, val_main_v10_apply, idx_col, max_apply]
  have hs : (fun e => val_main_v6 (F := Ideal) x0 x1 (ix3 n d e))
      = score (rowOf (val_main_v0 (F := Ideal) x0) n) (rowOf (val_main_v2 (F := Ideal) x1) n) d :=
    funext fun e => scores_apply x0 x1 n d e
  rw [hs, scores_apply]
  rfl

/-- Stage 14, their sums from zero. -/
theorem denom_apply (n : Fin 4096) (d : Fin 64) :
    val_main_v14 (F := Ideal) x0 x1 (ix2 n d)
      = denom (rowOf (val_main_v0 (F := Ideal) x0) n) (rowOf (val_main_v2 (F := Ideal) x1) n) d := by
  rw [val_main_v14_apply]
  show Ideal.ofBits .f32 0x00000000#32 + _ = _
  rw [Ideal.ofBits_zero_f32, zero_add]
  unfold denom
  refine Finset.sum_congr rfl fun k _ => ?_
  rw [idx_sum, expo_apply]

/-- Stage 17, the softmax. -/
theorem prob_apply (n : Fin 4096) (d e : Fin 64) :
    val_main_v17 (F := Ideal) x0 x1 (ix3 n d e)
      = prob (rowOf (val_main_v0 (F := Ideal) x0) n) (rowOf (val_main_v2 (F := Ideal) x1) n) d e := by
  rw [val_main_v17_apply, val_main_v16_apply, val_main_v15_apply, idx_col', expo_apply, denom_apply]
  rfl

/-- Stage 19, the result before the last reshape: attention of row `n` at `(h, d)`. -/
theorem out_apply (n : Fin 4096) (h d : Fin 64) :
    val_main_v19 (F := Ideal) x0 x1 x2 (ix3 n h d)
      = attnRow (rowOf (val_main_v0 (F := Ideal) x0) n) (rowOf (val_main_v2 (F := Ideal) x1) n) (rowOf (val_main_v4 (F := Ideal) x2) n) h d := by
  rw [val_main_v19_apply, idx_out, val_main_v18_apply]
  unfold attnRow
  refine Finset.sum_congr rfl fun k _ => ?_
  rw [idx_p, prob_apply, val_main_v5_apply, idx_v]
  rfl

/-- Stage 19 as a whole array: attention of the three reshaped arguments. -/
theorem out_eq :
    val_main_v19 (F := Ideal) x0 x1 x2
      = attn (val_main_v0 (F := Ideal) x0) (val_main_v2 (F := Ideal) x1) (val_main_v4 (F := Ideal) x2) := by
  funext i
  obtain ⟨n, h, d, rfl⟩ : ∃ (n : Fin 4096) (h d : Fin 64), i = ix3 n h d := ⟨i 0, i 1, i 2, eq_ix3 i⟩
  rw [out_apply, attn_ix3]

/-- THE REFERENCE'S RESULT: the reshape to 4096 x 4096 of attention of the three arguments reshaped to 4096 x 64 x 64. -/
theorem result_eq :
    val_main_v20 (F := Ideal) x0 x1 x2
      = shapeCast S4096x4096 (attn (shapeCast S4096x64x64 x0 shapeCasts_S4096x4096_S4096x64x64)
          (shapeCast S4096x64x64 x1 shapeCasts_S4096x4096_S4096x64x64)
          (shapeCast S4096x64x64 x2 shapeCasts_S4096x4096_S4096x64x64)) shapeCasts_S4096x64x64_S4096x4096 := by
  unfold val_main_v20
  rw [out_eq]
  rfl

end Cert.ReferenceIdeal.Rows

end
-- ==== Proof.lean ====
/-
  The per-row attention kernel against its jnp reference, over the extended reals.

  Every row `n` of the three 4096 x 4096 arguments is read as a 64 x 64 matrix, `Q n h d = q n (64 h + d)` and likewise
  `K`, `V`.  Both programs compute the scores `S n d e = sum over h of Q n h d * K n h e`, the row-wise softmax
  `P n d e = exp (S n d e - max over e) / sum over e of exp (...)`, and the result `out n (64 h + d) = sum over e of P n d e * V n h e`.
  The kernel takes 64 rows per grid point and contracts with `V` on the left; the reference transposes, contracts with
  the softmax on the left, and transposes back: the two differ by the layout of the indices and by the order of one product.
-/
import proofs.«173387_j781684048266_1_alg».proof.Defs
import proofs.«173387_j781684048266_1_alg».proof.Proof.Gen.Kernel
import proofs.«173387_j781684048266_1_alg».proof.Proof.Gen.Kernel.Skeleton
import proofs.«173387_j781684048266_1_alg».proof.Proof.Gen.Kernel.Launch
import proofs.«173387_j781684048266_1_alg».proof.Proof.Gen.Kernel.Points
import proofs.«173387_j781684048266_1_alg».proof.Proof.Gen.Kernel.Frame
import proofs.«173387_j781684048266_1_alg».proof.Proof.Gen.KernelIdeal
import proofs.«173387_j781684048266_1_alg».proof.Proof.Gen.KernelIdeal.Skeleton
import proofs.«173387_j781684048266_1_alg».proof.Proof.Gen.KernelIdeal.Launch
import proofs.«173387_j781684048266_1_alg».proof.Proof.Gen.KernelIdeal.Points
import proofs.«173387_j781684048266_1_alg».proof.Proof.Gen.KernelIdeal.Frame
import proofs.«173387_j781684048266_1_alg».proof.Proof.Gen.ReferenceIdeal
import proofs.«173387_j781684048266_1_alg».proof.Proof.Gen.ReferenceIdeal.Run
import proofs.«173387_j781684048266_1_alg».proof.Proof.Gen.ReferenceIdeal.Read
import proofs.«173387_j781684048266_1_alg».proof.Proof.Gen.Pre_finite_inputs
import proofs.«173387_j781684048266_1_alg».proof.Proof.KernelRun
import proofs.«173387_j781684048266_1_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at the reshape of attention of the three reshaped arguments: the kernel's by
    its run read block by block, the reference's by its run read stage by stage; the arguments agree, so the results do. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.Rows.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
